-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_arg7 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x16 .f32) (main_arg6 : FVec F S16 .f32) (main_arg7 : FVec F S64x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 50
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x1, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x1, .f32⟩
  | .hbm, ⟨48, _⟩ => ⟨S1x16, .f32⟩
  | .hbm, ⟨49, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x16, .f32⟩
  | .local _ .vmem, ⟨18, _⟩ => ⟨S1x16, .f32⟩
  | .local _ .vmem, ⟨19, _⟩ => ⟨S64x16, .f32⟩
  | .local _ .vmem, ⟨20, _⟩ => ⟨S10000x16, .f32⟩
  | .local _ .vmem, ⟨21, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x16.size a ≤ S100000x16.size a
  hwx1_6 : ∀ i : grid1.Coords, EltTy.bits .f32 = 32 ∨ (Rect.block (s := S100000x16) S10000x16.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x16, .f32⟩
  | .hbm, ⟨6, _⟩ => ⟨S16, .f32⟩
  | .hbm, ⟨7, _⟩ => ⟨S64x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.LibSage.lean ====
/-
  A mean-aggregating graph layer, one output at a time, over the extended reals. No program is mentioned here.

  For a node n and an output feature c the layer's value is

      (∑ₖ (msg n k / max (deg n) 1) · Wl k c  +  ∑ₖ x n k · Wr k c)  +  b c,

  where msg is the sum of the neighbours' rows, deg the number of neighbours, x the node's own row (sageAt). Two
  arrangements of array operations compute it. Row-block by row-block on a tile of T rows: the quotient by the
  column of clipped degrees, two plain products into zero accumulators, their sum, then the one-row bias stretched
  over the rows (tile_apply). On whole arrays: the quotient by the degree vector kept as a column and stretched,
  a product, the bias vector laid as a row and stretched, then the second product added last (refLayer_apply).
  The two differ only in where the bias enters the sum, and addition on the extended reals is commutative and
  associative, so both are sageAt: no finiteness is needed. sageLayer is the same value laid out as an array.
-/
import Idealize.ShloMosaic.PureOps.Ideal.Laws
import Idealize.ShloMosaic.Lib.ValueIdx
import Idealize.ShloMosaic.Lib.ValueLayout
import Idealize.ShloMosaic.Lib.Pipeline.Value
import proofs.«159627_j66614942761183_2_alg».proof.Proof.LibDense
import proofs.«159627_j66614942761183_2_alg».proof.Proof.LibKeepdims

noncomputable section

open scoped BigOperators

namespace LibSage

open Idealize.ShloMosaic Idealize.ShloMosaic.ValueIdx

/-- One output of the layer: the neighbour sum's row divided by the clipped degree against a column of the first
    weights, plus the node's row against a column of the second weights, plus the bias. `one` is the clip. -/
def sageAt {K : ℕ} (one : EReal) (msg : Fin K → EReal) (d : EReal) (x : Fin K → EReal) (wl wr : Fin K → EReal)
    (b : EReal) : EReal :=
  (∑ k : Fin K, Ideal.div (msg k) (max d one) * wl k + ∑ k : Fin K, x k * wr k) + b

/-- The layer as an array: entry (n, c) from row n of the neighbour sums and of the features, the degree column's
    entry n, columns c of the two weight arrays and the bias row's entry c. -/
def sageLayer {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) : (⟨2, ![N, C]⟩ : Shape).Idx → EReal :=
  fun i => sageAt one (fun k => msg (ix2 (i 0 : Fin N) k)) (degc (ix2 (i 0 : Fin N) (0 : Fin 1))) (fun k => x (ix2 (i 0 : Fin N) k))
    (fun k => wl (ix2 k (i 1 : Fin C))) (fun k => wr (ix2 k (i 1 : Fin C))) (brow (ix2 (0 : Fin 1) (i 1 : Fin C)))

theorem sageLayer_apply {N K C : ℕ} (one : EReal) (msg : (⟨2, ![N, K]⟩ : Shape).Idx → EReal) (degc : (⟨2, ![N, 1]⟩ : Shape).Idx → EReal)
    (x : (⟨2, ![N, K]⟩ : Shape).Idx → EReal) (wl : (⟨2, ![K, C]⟩ : Shape).Idx → EReal) (brow : (⟨2, ![1, C]⟩ : Shape).Idx → EReal)
    (wr : (⟨2, ![K, C]⟩ : Shape).Idx → EReal) (n : Fin N) (c : Fin C) :
    sageLayer one msg degc x wl brow wr (ix2 n c)
      = sageAt one (fun k => msg (ix2 n k)) (degc (ix2 n (0 : Fin 1))) (fun k => x (ix2 n k))
          (fun k => wl (ix2 k c)) (fun k => wr (ix2 k c)) (brow (ix2 (0 : Fin 1) c)) := rfl

/-- The host's plain product of an N×K by a K×C array at (r, c): the sum over k of lhs (r, k) · rhs (k, c) — the
    same sum a product into a zero accumulator reads. -/
theorem plain_dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) :=
  (Ideal.dotGeneral_apply d prec .single lhs rhs (ix2 r c)).trans
    ((Ideal.matmul_constant_zero_apply d prec lhs rhs (ix2 r c)).symm.trans (LibDense.plain_matmul_apply d hd prec lhs rhs r c))

section Rows
variable {α : Type}

/-- A vector of b entries broadcast in dimension 1 to one row reads, at (u, c), the vector's entry c. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ =>
    show c.val = if b = 1 then 0 else c.val
    split
    · have := c.isLt; omega
    · rfl

/-- One row broadcast in dimensions (0, 1) over a rows reads, at (p, c), the row's entry c. -/
theorem broadcastInDim_1b_ab_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ (![0, 1] : Fin 2 → Fin 2) h v (ix2 p c) = v (ix2 (0 : Fin 1) c) := by
  refine broadcastInDim_apply (![0, 1] : Fin 2 → Fin 2) h v (ix2 p c) (ix2 (0 : Fin 1) c) fun ax => ?_
  match ax with
  | ⟨0, _⟩ => rfl
  | ⟨1, _⟩ =>
    show c.val = if b = 1 then 0 else c.val
    split
    · have := c.isLt; omega
    · rfl

end Rows

/-- THE TILE ARRANGEMENT. On a tile of T rows: the neighbour sums divided by the column of degrees clipped below at
    `one` and stretched along the rows, multiplied into the first weights; the tile's own rows multiplied into the second
    weights; the two products added, then the bias row stretched over the rows added. Entry (p, q) is sageAt of row p. -/
theorem tile_apply {T K C : ℕ} (d : DotDims ⟨2, ![T, K]⟩ ⟨2, ![K, C]⟩ ⟨2, ![T, C]⟩) (hd : d = DotDims.plain T K C)
    (hbc : (⟨2, ![T, 1]⟩ : Shape).Broadcasts ⟨2, ![T, K]⟩) (hbr : (⟨2, ![1, C]⟩ : Shape).Broadcasts ⟨2, ![T, C]⟩)
    (hlt : FTy.bf16.bits < FTy.f32.bits) (w1 : BitVec FTy.f32.bits)
    (v0 : FVec Ideal ⟨2, ![T, 1]⟩ .f32) (v2 v9 : FVec Ideal ⟨2, ![T, K]⟩ .f32) (v11 v13 : FVec Ideal ⟨2, ![K, C]⟩ .f32)
    (v18 : FVec Ideal ⟨2, ![1, C]⟩ .f32) (p : Fin T) (q : Fin C) :
    addf (addf
        (matmul d none (truncf .bf16 (divf v2 (broadcastTo ⟨2, ![T, K]⟩ (maximumf v0 (broadcast ⟨2, ![T, 1]⟩ (Scalar.ofBits (F := Ideal) .f32 w1))) hbc)) hlt)
          (truncf .bf16 v11 hlt) (constant ⟨2, ![T, C]⟩ .f32 0x00000000#32))
        (matmul d none (truncf .bf16 v9 hlt) (truncf .bf16 v13 hlt) (constant ⟨2, ![T, C]⟩ .f32 0x00000000#32)))
      (broadcastTo ⟨2, ![T, C]⟩ v18 hbr) (ix2 p q)
    = sageAt (Ideal.ofBits .f32 w1) (fun k => v2 (ix2 p k)) (v0 (ix2 p (0 : Fin 1))) (fun k => v9 (ix2 p k))
        (fun k => v11 (ix2 k q)) (fun k => v13 (ix2 k q)) (v18 (ix2 (0 : Fin 1) q)) := by
  rw [addf_apply, addf_apply, LibDense.plain_matmul_apply d hd, LibDense.plain_matmul_apply d hd, broadcastTo_1b_ab_apply]
  unfold sageAt
  refine congrArg (· + v18 (ix2 (0 : Fin 1) q)) (congrArg₂ (· + ·) (Finset.sum_congr rfl fun k _ => ?_) (Finset.sum_congr rfl fun k _ => ?_))
  · rw [truncf_apply, truncf_apply, divf_apply, LibDense.broadcast_col_apply, maximumf_apply, broadcast_apply]
    rfl
  · rw [truncf_apply, truncf_apply]

/-- THE WHOLE-ARRAY ARRANGEMENT. The neighbour sums divided by the degree vector clipped below at `one`, kept as a
    column and stretched along the rows, multiplied into the first weights; the bias vector laid as one row and stretched
    over the rows added; the features multiplied into the second weights added last. Entry (n, c) is sageAt of row n:
    the bias moves past the second product by commutativity and associativity of the sum. -/
theorem refLayer_apply {N K C : ℕ} (d : DotDims ⟨2, ![N, K]⟩ ⟨2, ![K, C]⟩ ⟨2, ![N, C]⟩) (hd : d = DotDims.plain N K C)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![N, C]⟩ (![0, 1] : Fin 2 → Fin 2))
    (w1 : BitVec FTy.f32.bits)
    (msg x : FVec Ideal ⟨2, ![N, K]⟩ .f32) (deg : FVec Ideal ⟨1, ![N]⟩ .f32) (wl wr : FVec Ideal ⟨2, ![K, C]⟩ .f32)
    (b : FVec Ideal ⟨1, ![C]⟩ .f32) (n : Fin N) (c : Fin C) :
    addf (addf
        (Host.dotGeneral d none
          (Host.divf msg (broadcastInDim ⟨2, ![N, K]⟩ (![0, 1] : Fin 2 → Fin 2) h2 (broadcastInDim ⟨2, ![N, 1]⟩ (![0] : Fin 1 → Fin 2) h1
            (maximumf deg (broadcastInDim ⟨1, ![N]⟩ (![] : Fin 0 → Fin 1) h0 (constant (F := Ideal) ⟨0, ![]⟩ .f32 w1)))))) wl)
        (broadcastInDim ⟨2, ![N, C]⟩ (![0, 1] : Fin 2 → Fin 2) h4 (broadcastInDim ⟨2, ![1, C]⟩ (![1] : Fin 1 → Fin 2) h3 b)))
      (Host.dotGeneral d none x wr) (ix2 n c)
    = sageAt (Ideal.ofBits .f32 w1) (fun k => msg (ix2 n k)) (deg (ix1 n)) (fun k => x (ix2 n k))
        (fun k => wl (ix2 k c)) (fun k => wr (ix2 k c)) (b (ix1 c)) := by
  have hdeg : ∀ k : Fin K,
      (broadcastInDim ⟨2, ![N, K]⟩ (![0, 1] : Fin 2 → Fin 2) h2 (broadcastInDim ⟨2, ![N, 1]⟩ (![0] : Fin 1 → Fin 2) h1
        (maximumf deg (broadcastInDim ⟨1, ![N]⟩ (![] : Fin 0 → Fin 1) h0 (constant (F := Ideal) ⟨0, ![]⟩ .f32 w1))))) (ix2 n k)
        = max (deg (ix1 n)) (Ideal.ofBits .f32 w1) := by
    intro k
    rw [Cert.Gcn.broadcastInDim_a1_ab_apply, Cert.Gcn.broadcastInDim_a_a1_apply, maximumf_apply]
    refine congrArg (max (deg (ix1 n))) ?_
    exact (broadcastInDim_apply (![] : Fin 0 → Fin 1) h0 _ (ix1 n) ix0 (fun a => a.elim0)).trans rfl
  rw [addf_apply, addf_apply, plain_dotGeneral_apply d hd, plain_dotGeneral_apply d hd, broadcastInDim_1b_ab_apply,
    broadcastInDim_b_1b_apply]
  unfold sageAt
  rw [add_right_comm]
  refine congrArg (· + b (ix1 c)) (congrArg (· + ∑ k : Fin K, x (ix2 n k) * wr (ix2 k c)) (Finset.sum_congr rfl fun k _ => ?_))
  show Ideal.div (msg (ix2 n k)) _ * wl (ix2 k c) = _
  rw [hdeg k]

end LibSage

end
-- ==== Proof.Layer0.lean ====
/-
  The first call of the idealized kernel's program: the first layer with its maximum against zero, as one function of the arrays the call finds.

  The call works on the node rows ten thousand at a time: grid point t stages rows 10000·t … 10000·t + 9999 of the
  neighbour sums, of the degree column and of the node features, the two weight arrays and the bias row whole, and
  writes back rows 10000·t … of the result. The body's one store is a function of its loads alone (the payload);
  read at (p, q) it is the layer's value for row p of the staged blocks, with a maximum against zero (pay_apply). Row p of the blocks at
  point t is row 10000·t + p of the arrays, and the weights and the bias are the same at every point, so what point t
  writes back is block t of ONE function of the arrays as the call finds them (flushed_eq); the ten blocks cover the
  result (cover), so after the call the result array is that function (final).
-/
import proofs.«159627_j66614942761183_2_alg».proof.Proof.Gen.KernelIdeal.Frame
import proofs.«159627_j66614942761183_2_alg».proof.Proof.LibSage
import Idealize.ShloMosaic.Lib.Pipeline.Value

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

/-- The layer on the whole arrays, followed by a maximum against zero: entry (n, c) from row n of the neighbour sums and of the
    features, entry n of the degree column, columns c of the weights, entry c of the bias row. -/
def G (a0 : S100000x64.Idx → EReal) (a1 : S100000x1.Idx → EReal) (a2 : S100000x64.Idx → EReal)
    (a3 : S64x64.Idx → EReal) (a4 : S1x64.Idx → EReal) (a5 : S64x64.Idx → EReal) : S100000x64.Idx → EReal :=
  fun i => max (LibSage.sageLayer (Ideal.ofBits .f32 0x3F800000#32) a0 a1 a2 a3 a4 a5 i) (Ideal.ofBits .f32 0x00000000#32)

/-- The body's stored value, as the tree of array operations it is. -/
theorem pay_eq (v0 : Vec Ideal S10000x1 .f32) (v2 v9 : Vec Ideal S10000x64 .f32) (v11 v13 : Vec Ideal S64x64 .f32)
    (v18 : Vec Ideal S1x64 .f32) :
    k0_pay1 v0 v2 v9 v11 v13 v18 = maximumf (addf (addf (matmul dot_S10000x64_S64x64_S10000x64_1_0_0_1_n_n none (truncf .bf16 (divf (shapeCast S10000x64 v2 shapeCasts_S10000x64_S10000x64) (broadcastTo S10000x64 (maximumf (shapeCast S10000x1 v0 shapeCasts_S10000x1_S10000x1) (broadcast S10000x1 (Scalar.ofBits .f32 0x3F800000#32))) broadcasts_S10000x1_S10000x64)) bitsLt_bf16_f32) (truncf .bf16 v11 bitsLt_bf16_f32) (constant S10000x64 .f32 0x00000000#32)) (matmul dot_S10000x64_S64x64_S10000x64_1_0_0_1_n_n none (truncf .bf16 v9 bitsLt_bf16_f32) (truncf .bf16 v13 bitsLt_bf16_f32) (constant S10000x64 .f32 0x00000000#32))) (broadcastTo S10000x64 (shapeCast S1x64 v18 shapeCasts_S1x64_S1x64) broadcasts_S1x64_S10000x64)) (broadcast S10000x64 (Scalar.ofBits .f32 0x00000000#32)) := rfl

/-- The body's stored value at (p, q): the layer's value for row p of the loaded blocks, clipped below at zero. -/
theorem pay_apply (v0 : Vec Ideal S10000x1 .f32) (v2 v9 : Vec Ideal S10000x64 .f32) (v11 v13 : Vec Ideal S64x64 .f32)
    (v18 : Vec Ideal S1x64 .f32) (p : Fin 10000) (q : Fin 64) :
    k0_pay1 v0 v2 v9 v11 v13 v18 (ix2 p q)
      = max (LibSage.sageAt (Ideal.ofBits .f32 0x3F800000#32) (fun k => v2 (ix2 p k)) (v0 (ix2 p (0 : Fin 1))) (fun k => v9 (ix2 p k))
          (fun k => v11 (ix2 k q)) (fun k => v13 (ix2 k q)) (v18 (ix2 (0 : Fin 1) q))) (Ideal.ofBits .f32 0x00000000#32) := by
  rw [pay_eq]
  simp only [shapeCast_self]
  rw [maximumf_apply, broadcast_apply]
  refine congrArg₂ max ?_ rfl
  exact LibSage.tile_apply dot_S10000x64_S64x64_S10000x64_1_0_0_1_n_n rfl _ _ _ 0x3F800000#32 v0 v2 v9 v11 v13 v18 p q

theorem hz : (![0, 0] : Fin 2 → Nat) = fun _ => 0 := funext fun a => by fin_cases a <;> rfl

/-- The printed index maps over the ten grid points: the three row-blocked inputs and the output sit at block row t,
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer's value from a tile's loads equals the whole-array function at the tile's place, once each load is
    known to be the rows of the arrays it stages: stated over any blocks and arrays. -/
theorem tile_eq (x0 : Vec Ideal S10000x64 .f32) (x1 : Vec Ideal S10000x1 .f32) (x2 : Vec Ideal S10000x64 .f32)
    (x3 : Vec Ideal S64x64 .f32) (x4 : Vec Ideal S1x64 .f32) (x5 : Vec Ideal S64x64 .f32)
    (a0 : S100000x64.Idx → EReal) (a1 : S100000x1.Idx → EReal) (a2 : S100000x64.Idx → EReal)
    (a3 : S64x64.Idx → EReal) (a4 : S1x64.Idx → EReal) (a5 : S64x64.Idx → EReal)
    (p : Fin 10000) (q : Fin 64) (n : Fin 100000)
    (h0 : ∀ k : Fin 64, x0 (ix2 p k) = a0 (ix2 n k)) (h1 : x1 (ix2 p (0 : Fin 1)) = a1 (ix2 n (0 : Fin 1)))
    (h2 : ∀ k : Fin 64, x2 (ix2 p k) = a2 (ix2 n k)) (h3 : ∀ k : Fin 64, x3 (ix2 k q) = a3 (ix2 k q))
    (h4 : x4 (ix2 (0 : Fin 1) q) = a4 (ix2 (0 : Fin 1) q)) (h5 : ∀ k : Fin 64, x5 (ix2 k q) = a5 (ix2 k q)) :
    k0_pay1 x1 x0 x2 x3 x5 x4 (ix2 p q) = G a0 a1 a2 a3 a4 a5 (ix2 n q) := by
  rw [pay_apply]
  unfold G
  show _ = max (LibSage.sageLayer _ a0 a1 a2 a3 a4 a5 (ix2 n q)) _
  rw [LibSage.sageLayer_apply, funext h0, h1, funext h2, funext h3, h4, funext h5]

/-- An index of the result array is in point t's block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v20).slice (win0_6.rect t)).set ↔ _
  rw [View.set_slice_whole, Rect.mem_set_unit]
  exact Iff.rfl

section
variable (V : (c : Dev nD) → (b : Ref sig .tc) → Buf (Elt Ideal) ((c : Thread nD τ).loc b))

/-- WHAT POINT t WRITES BACK is block t of G of the arrays as the call finds them. -/
theorem flushed_eq (c : Dev nD) (t : Fin cfg0.N) :
    (dat0 V c).flushed 6 t = ((cfg0.win 6).blk t).view.read (Elt Ideal)
      (G (V c main_v17) (V c main_v18) (V c main_arg0) (V c main_arg2) (V c main_v19) (V c main_arg4)) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz,
    View.ld_unit_zero (S := S1x64) hz]
  obtain ⟨e00, e01, e10, e11, e20, e21, e30, e31, e40, e41, e50, e51, e60, e61⟩ := idx_facts t
  have ht : t.val < 10 := by have h := t.isLt; have hN : cfg0.N = 10 := N_0; omega
  funext j
  obtain ⟨p, q, rfl⟩ : ∃ (p : Fin 10000) (q : Fin 64), j = ix2 p q := ⟨j 0, j 1, eq_ix2 j⟩
  have hp : p.val < 10000 := p.isLt
  have hq : q.val < 64 := q.isLt
  let n : Fin 100000 := ⟨t.val * 10000 + p.val, by omega⟩
  have hout : ((cfg0.win 6).blk t).view.emb (ix2 p q) = ix2 n q := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  show k0_pay1 (iblk0 V c 1 t) (iblk0 V c 0 t) (iblk0 V c 2 t) (iblk0 V c 3 t) (iblk0 V c 5 t) (iblk0 V c 4 t) (ix2 p q)
    = G (V c main_v17) (V c main_v18) (V c main_arg0) (V c main_arg2) (V c main_v19) (V c main_arg4) (((cfg0.win 6).blk t).view.emb (ix2 p q))
  rw [hout]
  refine tile_eq (iblk0 V c 0 t) (iblk0 V c 1 t) (iblk0 V c 2 t) (iblk0 V c 3 t) (iblk0 V c 4 t) (iblk0 V c 5 t)
    (V c main_v17) (V c main_v18) (V c main_arg0) (V c main_arg2) (V c main_v19) (V c main_arg4) p q n ?_ ?_ ?_ ?_ ?_ ?_
  · intro k
    show V c main_v17 (((cfg0.win 0).blk t).view.emb (ix2 p k)) = V c main_v17 (ix2 n k)
    refine congrArg (V c main_v17) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_v18 (((cfg0.win 1).blk t).view.emb (ix2 p (0 : Fin 1))) = V c main_v18 (ix2 n (0 : Fin 1))
    refine congrArg (V c main_v18) (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * 0 = 0; omega
  · intro k
    show V c main_arg0 (((cfg0.win 2).blk t).view.emb (ix2 p k)) = V c main_arg0 (ix2 n k)
    refine congrArg (V c main_arg0) (funext fun a => Fin.ext ?_)
    match a with
    | ⟨0, _⟩ => show win0_2.index t (0 : Fin 2) * 10000 + 1 * p.val = t.val * 10000 + p.val; omega
    | ⟨1, _⟩ => show win0_2.index t (1 : Fin 2) * 64 + 1 * k.val = k.val; omega
  · intro k
    show V c main_arg2 (((cfg0.win 3).blk t).view.emb (ix2 k q)) = V c main_arg2 (ix2 k q)
    refine congrArg (V c main_arg2) (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · show V c main_v19 (((cfg0.win 4).blk t).view.emb (ix2 (0 : Fin 1) q)) = V c main_v19 (ix2 (0 : Fin 1) q)
    refine congrArg (V c main_v19) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  · intro k
    show V c main_arg4 (((cfg0.win 5).blk t).view.emb (ix2 k q)) = V c main_arg4 (ix2 k q)
    refine congrArg (V c main_arg4) (funext fun a => Fin.ext ?_)
    match a with
    | ⟨0, _⟩ => show win0_5.index t (0 : Fin 2) * 64 + 1 * k.val = k.val; omega
    | ⟨1, _⟩ => show win0_5.index t (1 : Fin 2) * 64 + 1 * q.val = q.val; omega

/-- Every index of the result array lies in the block of the point whose number is its row divided by 10000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e00, e01, e10, e11, e20, e21, e30, e31, e40, e41, e50, e51, e60, e61⟩ := idx_facts t
  have e60' : win0_6.index t (0 : Fin 2) = (i 0).val / 10000 := e60
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- THE RESULT ARRAY after the call: G of the arrays as the call finds them. -/
theorem final (c : Dev nD) : (dat0 V c).arrAt 6 cfg0.N
    = G (V c main_v17) (V c main_v18) (V c main_arg0) (V c main_arg2) (V c main_v19) (V c main_arg4) :=
  (dat0 V c).arrAt_eq_of_cover 6 _ (fun t _ => flushed_eq V c t) cover

end

end Cert.KernelIdeal.Layer0

end
-- ==== Proof.Layer1.lean ====
/-
  The second call of the idealized kernel's program: the second layer, as one function of the arrays the call finds.

  The call works on the node rows ten thousand at a time: grid point t stages rows 10000·t … 10000·t + 9999 of the
  neighbour sums, of the degree column and of the node features, the two weight arrays and the bias row whole, and
  writes back rows 10000·t … of the result. The body's one store is a function of its loads alone (the payload);
  read at (p, q) it is the layer's value for row p of the staged blocks (pay_apply). Row p of the blocks at
  point t is row 10000·t + p of the arrays, and the weights and the bias are the same at every point, so what point t
  writes back is block t of ONE function of the arrays as the call finds them (flushed_eq); the ten blocks cover the
  result (cover), so after the call the result array is that function (final).
-/
import proofs.«159627_j66614942761183_2_alg».proof.Proof.Gen.KernelIdeal.Frame
import proofs.«159627_j66614942761183_2_alg».proof.Proof.LibSage
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-- The layer on the whole arrays: entry (n, c) from row n of the neighbour sums and of the
    features, entry n of the degree column, columns c of the weights, entry c of the bias row. -/
def G (a0 : S100000x64.Idx → EReal) (a1 : S100000x1.Idx → EReal) (a2 : S100000x64.Idx → EReal)
    (a3 : S64x16.Idx → EReal) (a4 : S1x16.Idx → EReal) (a5 : S64x16.Idx → EReal) : S100000x16.Idx → EReal :=
  LibSage.sageLayer (Ideal.ofBits .f32 0x3F800000#32) a0 a1 a2 a3 a4 a5

/-- The body's stored value, as the tree of array operations it is. -/
theorem pay_eq (v0 : Vec Ideal S10000x1 .f32) (v2 v9 : Vec Ideal S10000x64 .f32) (v11 v13 : Vec Ideal S64x16 .f32)
    (v18 : Vec Ideal S1x16 .f32) :
    k1_pay1 v0 v2 v9 v11 v13 v18 = addf (addf (matmul dot_S10000x64_S64x16_S10000x16_1_0_0_1_n_n none (truncf .bf16 (divf (shapeCast S10000x64 v2 shapeCasts_S10000x64_S10000x64) (broadcastTo S10000x64 (maximumf (shapeCast S10000x1 v0 shapeCasts_S10000x1_S10000x1) (broadcast S10000x1 (Scalar.ofBits .f32 0x3F800000#32))) broadcasts_S10000x1_S10000x64)) bitsLt_bf16_f32) (truncf .bf16 v11 bitsLt_bf16_f32) (constant S10000x16 .f32 0x00000000#32)) (matmul dot_S10000x64_S64x16_S10000x16_1_0_0_1_n_n none (truncf .bf16 (shapeCast S10000x64 v9 shapeCasts_S10000x64_S10000x64) bitsLt_bf16_f32) (truncf .bf16 v13 bitsLt_bf16_f32) (constant S10000x16 .f32 0x00000000#32))) (broadcastTo S10000x16 (shapeCast S1x16 v18 shapeCasts_S1x16_S1x16) broadcasts_S1x16_S10000x16) := rfl

/-- The body's stored value at (p, q): the layer's value for row p of the loaded blocks. -/
theorem pay_apply (v0 : Vec Ideal S10000x1 .f32) (v2 v9 : Vec Ideal S10000x64 .f32) (v11 v13 : Vec Ideal S64x16 .f32)
    (v18 : Vec Ideal S1x16 .f32) (p : Fin 10000) (q : Fin 16) :
    k1_pay1 v0 v2 v9 v11 v13 v18 (ix2 p q)
      = LibSage.sageAt (Ideal.ofBits .f32 0x3F800000#32) (fun k => v2 (ix2 p k)) (v0 (ix2 p (0 : Fin 1))) (fun k => v9 (ix2 p k))
          (fun k => v11 (ix2 k q)) (fun k => v13 (ix2 k q)) (v18 (ix2 (0 : Fin 1) q)) := by
  rw [pay_eq]
  simp only [shapeCast_self]
  exact LibSage.tile_apply dot_S10000x64_S64x16_S10000x16_1_0_0_1_n_n rfl _ _ _ 0x3F800000#32 v0 v2 v9 v11 v13 v18 p q

theorem hz : (![0, 0] : Fin 2 → Nat) = fun _ => 0 := funext fun a => by fin_cases a <;> rfl

/-- The printed index maps over the ten grid points: the three row-blocked inputs and the output sit at block row t,
    the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer's value from a tile's loads equals the whole-array function at the tile's place, once each load is
    known to be the rows of the arrays it stages: stated over any blocks and arrays. -/
theorem tile_eq (x0 : Vec Ideal S10000x64 .f32) (x1 : Vec Ideal S10000x1 .f32) (x2 : Vec Ideal S10000x64 .f32)
    (x3 : Vec Ideal S64x16 .f32) (x4 : Vec Ideal S1x16 .f32) (x5 : Vec Ideal S64x16 .f32)
    (a0 : S100000x64.Idx → EReal) (a1 : S100000x1.Idx → EReal) (a2 : S100000x64.Idx → EReal)
    (a3 : S64x16.Idx → EReal) (a4 : S1x16.Idx → EReal) (a5 : S64x16.Idx → EReal)
    (p : Fin 10000) (q : Fin 16) (n : Fin 100000)
    (h0 : ∀ k : Fin 64, x0 (ix2 p k) = a0 (ix2 n k)) (h1 : x1 (ix2 p (0 : Fin 1)) = a1 (ix2 n (0 : Fin 1)))
    (h2 : ∀ k : Fin 64, x2 (ix2 p k) = a2 (ix2 n k)) (h3 : ∀ k : Fin 64, x3 (ix2 k q) = a3 (ix2 k q))
    (h4 : x4 (ix2 (0 : Fin 1) q) = a4 (ix2 (0 : Fin 1) q)) (h5 : ∀ k : Fin 64, x5 (ix2 k q) = a5 (ix2 k q)) :
    k1_pay1 x1 x0 x2 x3 x5 x4 (ix2 p q) = G a0 a1 a2 a3 a4 a5 (ix2 n q) := by
  rw [pay_apply]
  unfold G
  rw [LibSage.sageLayer_apply, funext h0, h1, funext h2, funext h3, h4, funext h5]

/-- An index of the result array is in point t's block iff each coordinate is in the block's range on its axis. -/
theorem mem_blk (t : Fin cfg1.N) (i : S100000x16.Idx) :
    i ∈ ((cfg1.win 6).blk t).view.set ↔ ∀ a : Fin 2, win1_6.index t a * S10000x16.size a ≤ (i a).val ∧ (i a).val < win1_6.index t a * S10000x16.size a + S10000x16.size a := by
  show i ∈ ((View.whole main_v33).slice (win1_6.rect t)).set ↔ _
  rw [View.set_slice_whole, Rect.mem_set_unit]
  exact Iff.rfl

section
variable (V : (c : Dev nD) → (b : Ref sig .tc) → Buf (Elt Ideal) ((c : Thread nD τ).loc b))

/-- WHAT POINT t WRITES BACK is block t of G of the arrays as the call finds them. -/
theorem flushed_eq (c : Dev nD) (t : Fin cfg1.N) :
    (dat1 V c).flushed 6 t = ((cfg1.win 6).blk t).view.read (Elt Ideal)
      (G (V c main_v30) (V c main_v31) (V c main_v20) (V c main_arg5) (V c main_v32) (V c main_arg7)) := by
  show (cfg1.win 6).cut (grid1.coords t) ((dat1 V c).after 6 t) = _
  rw [after1_6]
  unfold out1_6
  rw [View.canon_unit_zero hz]
  simp only [View.ld_unit_zero (S := S10000x64) hz, View.ld_unit_zero (S := S10000x1) hz, View.ld_unit_zero (S := S64x16) hz,
    View.ld_unit_zero (S := S1x16) hz]
  obtain ⟨e00, e01, e10, e11, e20, e21, e30, e31, e40, e41, e50, e51, e60, e61⟩ := idx_facts t
  have ht : t.val < 10 := by have h := t.isLt; have hN : cfg1.N = 10 := N_1; omega
  funext j
  obtain ⟨p, q, rfl⟩ : ∃ (p : Fin 10000) (q : Fin 16), j = ix2 p q := ⟨j 0, j 1, eq_ix2 j⟩
  have hp : p.val < 10000 := p.isLt
  have hq : q.val < 16 := q.isLt
  let n : Fin 100000 := ⟨t.val * 10000 + p.val, by omega⟩
  have hout : ((cfg1.win 6).blk t).view.emb (ix2 p q) = ix2 n q := by
    funext a; apply Fin.ext
    match a with
    | ⟨0, _⟩ => show win1_6.index t (0 : Fin 2) * 10000 + 1 * p.val = t.val * 10000 + p.val; omega
    | ⟨1, _⟩ => show win1_6.index t (1 : Fin 2) * 16 + 1 * q.val = q.val; omega
  show k1_pay1 (iblk1 V c 1 t) (iblk1 V c 0 t) (iblk1 V c 2 t) (iblk1 V c 3 t) (iblk1 V c 5 t) (iblk1 V c 4 t) (ix2 p q)
    = G (V c main_v30) (V c main_v31) (V c main_v20) (V c main_arg5) (V c main_v32) (V c main_arg7) (((cfg1.win 6).blk t).view.emb (ix2 p q))
  rw [hout]
  refine tile_eq (iblk1 V c 0 t) (iblk1 V c 1 t) (iblk1 V c 2 t) (iblk1 V c 3 t) (iblk1 V c 4 t) (iblk1 V c 5 t)
    (V c main_v30) (V c main_v31) (V c main_v20) (V c main_arg5) (V c main_v32) (V c main_arg7) p q n ?_ ?_ ?_ ?_ ?_ ?_
  · intro k
    show V c main_v30 (((cfg1.win 0).blk t).view.emb (ix2 p k)) = V c main_v30 (ix2 n k)
    refine congrArg (V c main_v30) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * k.val = k.val; omega
  · show V c main_v31 (((cfg1.win 1).blk t).view.emb (ix2 p (0 : Fin 1))) = V c main_v31 (ix2 n (0 : Fin 1))
    refine congrArg (V c main_v31) (funext fun a => Fin.ext ?_)
    match a with
    | ⟨0, _⟩ => show win1_1.index t (0 : Fin 2) * 10000 + 1 * p.val = t.val * 10000 + p.val; omega
    | ⟨1, _⟩ => show win1_1.index t (1 : Fin 2) * 1 + 1 * 0 = 0; omega
  · intro k
    show V c main_v20 (((cfg1.win 2).blk t).view.emb (ix2 p k)) = V c main_v20 (ix2 n k)
    refine congrArg (V c main_v20) (funext fun a => Fin.ext ?_)
    match a with
    | ⟨0, _⟩ => show win1_2.index t (0 : Fin 2) * 10000 + 1 * p.val = t.val * 10000 + p.val; omega
    | ⟨1, _⟩ => show win1_2.index t (1 : Fin 2) * 64 + 1 * k.val = k.val; omega
  · intro k
    show V c main_arg5 (((cfg1.win 3).blk t).view.emb (ix2 k q)) = V c main_arg5 (ix2 k q)
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 16 + 1 * q.val = q.val; omega
  · show V c main_v32 (((cfg1.win 4).blk t).view.emb (ix2 (0 : Fin 1) q)) = V c main_v32 (ix2 (0 : Fin 1) q)
    refine congrArg (V c main_v32) (funext fun a => Fin.ext ?_)
    match a with
    | ⟨0, _⟩ => show win1_4.index t (0 : Fin 2) * 1 + 1 * 0 = 0; omega
    | ⟨1, _⟩ => show win1_4.index t (1 : Fin 2) * 16 + 1 * q.val = q.val; omega
  · intro k
    show V c main_arg7 (((cfg1.win 5).blk t).view.emb (ix2 k q)) = V c main_arg7 (ix2 k q)
    refine congrArg (V c main_arg7) (funext fun a => Fin.ext ?_)
    match a with
    | ⟨0, _⟩ => show win1_5.index t (0 : Fin 2) * 64 + 1 * k.val = k.val; omega
    | ⟨1, _⟩ => show win1_5.index t (1 : Fin 2) * 16 + 1 * q.val = q.val; omega

/-- Every index of the result array lies in the block of the point whose number is its row divided by 10000. -/
theorem cover (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  let t : Fin cfg1.N := ⟨(i 0).val / 10000, by rw [show cfg1.N = 10 from N_1]; omega⟩
  obtain ⟨e00, e01, e10, e11, e20, e21, e30, e31, e40, e41, e50, e51, e60, e61⟩ := idx_facts t
  have e60' : win1_6.index t (0 : Fin 2) = (i 0).val / 10000 := e60
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 16 ≤ (i 1).val ∧ (i 1).val < win1_6.index t (1 : Fin 2) * 16 + 16; omega

/-- THE RESULT ARRAY after the call: G of the arrays as the call finds them. -/
theorem final (c : Dev nD) : (dat1 V c).arrAt 6 cfg1.N
    = G (V c main_v30) (V c main_v31) (V c main_v20) (V c main_arg5) (V c main_v32) (V c main_arg7) :=
  (dat1 V c).arrAt_eq_of_cover 6 _ (fun t _ => flushed_eq V c t) cover

end

end Cert.KernelIdeal.Layer1

end
-- ==== Proof.KernelRun.lean ====
/-
  The idealized kernel's program, run from any launch memory: every weakly fair execution ends, nothing faults, and
  every buffer of the core that is not a scoped staging buffer ends at the contents the program's four stretches leave
  in it, one after the other: the host operations before the first call (the two index rows, the in-degree, the first
  neighbour sum), the first call's ten row blocks written back, the host operations between the calls (the second
  neighbour sum, gathered from the first call's result), and the second call's ten row blocks. In particular the
  result array is what the second call's write-backs leave, and the eight arguments are as launched.
-/
import proofs.«159627_j66614942761183_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with every unscoped buffer of every core read at the end: it holds what the last of the four
    stretches leaves there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result array named: it ends at what the second call's write-backs leave in its output array,
    and the arguments end as launched. -/
theorem run_result : θ_run defs (onTc (τ := τ) (main (F := F))) ⟨m, fun _ => 0, ρ⟩ (fun r => ∀ c : Dev nD,
      r.2.mem ((c.tc : Thread nD τ).loc main_v33) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v33 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.WholeRun

end
-- ==== Proof.HostK.lean ====
/-
  The host operations the idealized kernel's program applies around its two calls, as functions: the two rows of the
  edge array, the in-degree of every node, and the neighbour sum of an array of node rows.
-/
import proofs.«159627_j66614942761183_2_alg».proof.Proof.Gen.KernelIdeal

noncomputable section

namespace Cert.KernelIdeal.HostFns

open Cert.KernelIdeal Cert.KernelIdeal.Gen Idealize.ShloMosaic

variable {F : FTy → Type} [FloatOps F]

/-- Row 0 of the edge array, as a vector: the source node of every edge. -/
def srcRow (e : IVec S2x1600000 32) : IVec S1600000 32 :=
  shapeCast _ (extractStridedSlice S1x1600000 ![0, 0] e slices_S2x1600000_S1x1600000_0_0) shapeCasts_S1x1600000_S1600000

/-- Row 1 of the edge array, as a vector: the destination node of every edge. -/
def dstRow (e : IVec S2x1600000 32) : IVec S1600000 32 :=
  shapeCast _ (extractStridedSlice S1x1600000 ![1, 0] e slices_S2x1600000_S1x1600000_1_0) shapeCasts_S1x1600000_S1600000

/-- The in-degree of every node: a one scattered onto its destination for every edge, summed, from zero. -/
def degRows (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The neighbour sum: for every edge the source's row of h (a negative source index counted from the end) is gathered
    and added into the destination's row, from zero. -/
def aggrRows (src dst : IVec S1600000 32) (h : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.KernelIdeal.HostFns

end
-- ==== Proof.KernelValue.lean ====
/-
  What the idealized kernel's program leaves in its result array, as one function of the launch contents of its
  arguments. Before the first call the host operations leave the two edge rows, the in-degree and the first neighbour
  sum (of the node features); the first call leaves the first layer, clipped at zero, of those (hidden); between the
  calls the host operations gather the second neighbour sum from hidden; the second call leaves the second layer of
  that sum, the same in-degree, and hidden (out). Every step reads the previous stretch's contents by name.
-/
import proofs.«159627_j66614942761183_2_alg».proof.Proof.Layer0
import proofs.«159627_j66614942761183_2_alg».proof.Proof.Layer1
import proofs.«159627_j66614942761183_2_alg».proof.Proof.KernelRun
import proofs.«159627_j66614942761183_2_alg».proof.Proof.HostK
import Idealize.ShloMosaic.Lib.StableHlo.Run

noncomputable section

namespace Cert.KernelIdeal.Whole

open Cert.KernelIdeal Cert.KernelIdeal.Gen Cert.KernelIdeal.HostFns
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first call's result from the launch contents: the first layer with its maximum against zero, of the neighbour
    sum of the features, the in-degree as a column, the features, the first weights and the first bias as a row. -/
def hidden : S100000x64.Idx → EReal :=
  Layer0.G (aggrRows (F := Ideal) (srcRow (m ((c.tc : Thread nD τ).loc main_arg1))) (dstRow (m ((c.tc : Thread nD τ).loc main_arg1))) (m ((c.tc : Thread nD τ).loc main_arg0)))
    (shapeCast _ (degRows (F := Ideal) (dstRow (m ((c.tc : Thread nD τ).loc main_arg1)))) shapeCasts_S100000_S100000x1)
    (m ((c.tc : Thread nD τ).loc main_arg0)) (m ((c.tc : Thread nD τ).loc main_arg2))
    (shapeCast _ (m ((c.tc : Thread nD τ).loc main_arg3)) shapeCasts_S64_S1x64) (m ((c.tc : Thread nD τ).loc main_arg4))

/-- The second call's result from the launch contents: the second layer of the neighbour sum of `hidden`, the same
    in-degree column, `hidden`, the second weights and the second bias as a row. -/
def out : S100000x16.Idx → EReal :=
  Layer1.G (aggrRows (F := Ideal) (srcRow (m ((c.tc : Thread nD τ).loc main_arg1))) (dstRow (m ((c.tc : Thread nD τ).loc main_arg1))) (hidden m c))
    (shapeCast _ (degRows (F := Ideal) (dstRow (m ((c.tc : Thread nD τ).loc main_arg1)))) shapeCasts_S100000_S100000x1)
    (hidden m c) (m ((c.tc : Thread nD τ).loc main_arg5))
    (shapeCast _ (m ((c.tc : Thread nD τ).loc main_arg6)) shapeCasts_S16_S1x16) (m ((c.tc : Thread nD τ).loc main_arg7))

/-! ## What the first call finds -/

theorem V1_v17 : V1 m ρ c main_v17 = aggrRows (F := Ideal) (srcRow (m ((c.tc : Thread nD τ).loc main_arg1))) (dstRow (m ((c.tc : Thread nD τ).loc main_arg1))) (m ((c.tc : Thread nD τ).loc main_arg0)) := by
  show StableHlo.after hostOps0 (W0 m ρ c) (Proc.devRef .tc main_v17) = _
  after_results_simp <;> rfl

theorem V1_v18 : V1 m ρ c main_v18 = shapeCast _ (degRows (F := Ideal) (dstRow (m ((c.tc : Thread nD τ).loc main_arg1)))) shapeCasts_S100000_S100000x1 := by
  show StableHlo.after hostOps0 (W0 m ρ c) (Proc.devRef .tc main_v18) = _
  after_results_simp <;> rfl

theorem V1_v19 : V1 m ρ c main_v19 = shapeCast _ (m ((c.tc : Thread nD τ).loc main_arg3)) shapeCasts_S64_S1x64 := by
  show StableHlo.after hostOps0 (W0 m ρ c) (Proc.devRef .tc main_v19) = _
  after_results_simp <;> rfl

theorem V1_arg0 : V1 m ρ c main_arg0 = m ((c.tc : Thread nD τ).loc main_arg0) := by
  show StableHlo.after hostOps0 (W0 m ρ c) (Proc.devRef .tc main_arg0) = _
  after_results_simp <;> rfl

theorem V1_arg2 : V1 m ρ c main_arg2 = m ((c.tc : Thread nD τ).loc main_arg2) := by
  show StableHlo.after hostOps0 (W0 m ρ c) (Proc.devRef .tc main_arg2) = _
  after_results_simp <;> rfl

theorem V1_arg4 : V1 m ρ c main_arg4 = m ((c.tc : Thread nD τ).loc main_arg4) := by
  show StableHlo.after hostOps0 (W0 m ρ c) (Proc.devRef .tc main_arg4) = _
  after_results_simp <;> rfl

/-! ## What the first call leaves, and what it does not touch -/

theorem W2_v20 : W2 m ρ c (Proc.devRef .tc main_v20) = hidden m c :=
  (W2_arr m ρ c 6).trans ((Layer0.final (V1 m ρ) c).trans (by
    rw [V1_v17, V1_v18, V1_v19, V1_arg0, V1_arg2, V1_arg4]; rfl))

theorem W2_v1 : W2 m ρ c (Proc.devRef .tc main_v1) = srcRow (m ((c.tc : Thread nD τ).loc main_arg1)) :=
  (W2_of_ne m ρ c main_v1 (by decide)).trans (by
    show StableHlo.after hostOps0 (W0 m ρ c) (Proc.devRef .tc main_v1) = _
    after_results_simp <;> rfl)

theorem W2_v3 : W2 m ρ c (Proc.devRef .tc main_v3) = dstRow (m ((c.tc : Thread nD τ).loc main_arg1)) :=
  (W2_of_ne m ρ c main_v3 (by decide)).trans (by
    show StableHlo.after hostOps0 (W0 m ρ c) (Proc.devRef .tc main_v3) = _
    after_results_simp <;> rfl)

theorem W2_v7 : W2 m ρ c (Proc.devRef .tc main_v7) = degRows (F := Ideal) (dstRow (m ((c.tc : Thread nD τ).loc main_arg1))) :=
  (W2_of_ne m ρ c main_v7 (by decide)).trans (by
    show StableHlo.after hostOps0 (W0 m ρ c) (Proc.devRef .tc main_v7) = _
    after_results_simp <;> rfl)

theorem W2_arg5 : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results_simp <;> rfl)

theorem W2_arg6 : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results_simp <;> rfl)

theorem W2_arg7 : W2 m ρ c (Proc.devRef .tc main_arg7) = m ((c.tc : Thread nD τ).loc main_arg7) :=
  (W2_of_ne m ρ c main_arg7 (by decide)).trans (by
    show StableHlo.after hostOps0 (W0 m ρ c) (Proc.devRef .tc main_arg7) = _
    after_results_simp <;> rfl)

/-! ## What the second call finds -/

theorem V3_v30 : V3 m ρ c main_v30 = aggrRows (F := Ideal) (srcRow (m ((c.tc : Thread nD τ).loc main_arg1))) (dstRow (m ((c.tc : Thread nD τ).loc main_arg1))) (hidden m c) := by
  show StableHlo.after hostOps1 (W2 m ρ c) (Proc.devRef .tc main_v30) = _
  after_results_simp
  rw [W2_v1, W2_v3, W2_v20]
  all_goals rfl

theorem V3_v31 : V3 m ρ c main_v31 = shapeCast _ (degRows (F := Ideal) (dstRow (m ((c.tc : Thread nD τ).loc main_arg1)))) shapeCasts_S100000_S100000x1 := by
  show StableHlo.after hostOps1 (W2 m ρ c) (Proc.devRef .tc main_v31) = _
  after_results_simp
  rw [W2_v7]
  all_goals rfl

theorem V3_v20 : V3 m ρ c main_v20 = hidden m c := by
  show StableHlo.after hostOps1 (W2 m ρ c) (Proc.devRef .tc main_v20) = _
  after_results_simp
  rw [W2_v20]
  all_goals rfl

theorem V3_arg5 : V3 m ρ c main_arg5 = m ((c.tc : Thread nD τ).loc main_arg5) := by
  show StableHlo.after hostOps1 (W2 m ρ c) (Proc.devRef .tc main_arg5) = _
  after_results_simp
  rw [W2_arg5]
  all_goals rfl

theorem V3_v32 : V3 m ρ c main_v32 = shapeCast _ (m ((c.tc : Thread nD τ).loc main_arg6)) shapeCasts_S16_S1x16 := by
  show StableHlo.after hostOps1 (W2 m ρ c) (Proc.devRef .tc main_v32) = _
  after_results_simp
  rw [W2_arg6]
  all_goals rfl

theorem V3_arg7 : V3 m ρ c main_arg7 = m ((c.tc : Thread nD τ).loc main_arg7) := by
  show StableHlo.after hostOps1 (W2 m ρ c) (Proc.devRef .tc main_arg7) = _
  after_results_simp
  rw [W2_arg7]
  all_goals rfl

/-! ## The result -/

/-- What the second call's write-backs leave in the result array is `out` of the launch contents. -/
theorem value : (dat1 (V3 m ρ) c).arrAt 6 cfg1.N = out m c :=
  (Layer1.final (V3 m ρ) c).trans (by
    rw [V3_v30, V3_v31, V3_v20, V3_arg5, V3_v32, V3_arg7]; rfl)

/-- The program's run: it ends, nothing faults, the result array holds `out` of the launch contents and the arguments
    are as launched. -/
theorem run : θ_run defs (onTc (τ := τ) (main (F := Ideal))) ⟨m, fun _ => 0, ρ⟩ (fun r => ∀ c : Dev nD,
      r.2.mem ((c.tc : Thread nD τ).loc main_v33) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (WholeRun.run_result m ρ)

end Cert.KernelIdeal.Whole

end
-- ==== Proof.HostR.lean ====
/-
  The idealized reference's host operations, as functions: the two rows of the edge array, the in-degree of every node,
  the neighbour sum of an array of node rows, and its two layers on whole arrays. Read at an entry (n, c) each layer is
  the layer's one-output value of row n (the first with its maximum against zero).
-/
import proofs.«159627_j66614942761183_2_alg».proof.Proof.Gen.ReferenceIdeal
import proofs.«159627_j66614942761183_2_alg».proof.Proof.LibSage

noncomputable section

namespace Cert.ReferenceIdeal.HostFns

open Cert.ReferenceIdeal Cert.ReferenceIdeal.Gen Idealize.ShloMosaic Idealize.ShloMosaic.ValueIdx

variable {F : FTy → Type} [FloatOps F]

/-- Row 0 of the edge array, as a vector: the source node of every edge. -/
def srcRow (e : IVec S2x1600000 32) : IVec S1600000 32 :=
  shapeCast _ (extractStridedSlice S1x1600000 ![0, 0] e slices_S2x1600000_S1x1600000_0_0) shapeCasts_S1x1600000_S1600000

/-- Row 1 of the edge array, as a vector: the destination node of every edge. -/
def dstRow (e : IVec S2x1600000 32) : IVec S1600000 32 :=
  shapeCast _ (extractStridedSlice S1x1600000 ![1, 0] e slices_S2x1600000_S1x1600000_1_0) shapeCasts_S1x1600000_S1600000

/-- The in-degree of every node: a one scattered onto its destination for every edge, summed, from zero. -/
def degRows (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The neighbour sum: for every edge the source's row of h (a negative source index counted from the end) is gathered
    and added into the destination's row, from zero. -/
def aggrRows (src dst : IVec S1600000 32) (h : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first layer of the reference as it computes it on whole arrays, with its maximum against zero. -/
def layer0 (msg : FVec Ideal S100000x64 .f32) (deg : FVec Ideal S100000 .f32) (x : FVec Ideal S100000x64 .f32)
    (wl : FVec Ideal S64x64 .f32) (b : FVec Ideal S64 .f32) (wr : FVec Ideal S64x64 .f32) : FVec Ideal S100000x64 .f32 :=
  maximumf (addf (addf (Host.dotGeneral dot_S100000x64_S64x64_S100000x64_1_0_0_1_n_n none
      (Host.divf msg (broadcastInDim S100000x64 ![0, 1] bcast_S100000x1_S100000x64_0_1 (broadcastInDim S100000x1 ![0] bcast_S100000_S100000x1_0
        (maximumf deg (broadcastInDim S100000 ![] bcast_S_S100000 (constant (F := Ideal) S_ .f32 0x3F800000#32)))))) wl)
      (broadcastInDim S100000x64 ![0, 1] bcast_S1x64_S100000x64_0_1 (broadcastInDim S1x64 ![1] bcast_S64_S1x64_1 b)))
    (Host.dotGeneral dot_S100000x64_S64x64_S100000x64_1_0_0_1_n_n none x wr))
    (broadcastInDim S100000x64 ![] bcast_S_S100000x64 (constant (F := Ideal) S_ .f32 0x00000000#32))

/-- Entry (n, c) of it: the layer's value for row n, clipped below at zero. -/
theorem layer0_apply (msg : FVec Ideal S100000x64 .f32) (deg : FVec Ideal S100000 .f32) (x : FVec Ideal S100000x64 .f32)
    (wl : FVec Ideal S64x64 .f32) (b : FVec Ideal S64 .f32) (wr : FVec Ideal S64x64 .f32) (n : Fin 100000) (c : Fin 64) :
    layer0 msg deg x wl b wr (ix2 n c)
      = max (LibSage.sageAt (Ideal.ofBits .f32 0x3F800000#32) (fun k => msg (ix2 n k)) (deg (ix1 n)) (fun k => x (ix2 n k))
          (fun k => wl (ix2 k c)) (fun k => wr (ix2 k c)) (b (ix1 c))) (Ideal.ofBits .f32 0x00000000#32) := by
  unfold layer0
  rw [maximumf_apply]
  refine congrArg₂ max ?_ ?_
  · exact LibSage.refLayer_apply dot_S100000x64_S64x64_S100000x64_1_0_0_1_n_n rfl _ _ _ _ _ 0x3F800000#32 msg x deg wl wr b n c
  · exact (broadcastInDim_apply _ bcast_S_S100000x64 _ (ix2 n c) ix0 (fun a => a.elim0)).trans rfl

/-- The second layer of the reference as it computes it on whole arrays. -/
def layer1 (msg : FVec Ideal S100000x64 .f32) (deg : FVec Ideal S100000 .f32) (x : FVec Ideal S100000x64 .f32)
    (wl : FVec Ideal S64x16 .f32) (b : FVec Ideal S16 .f32) (wr : FVec Ideal S64x16 .f32) : FVec Ideal S100000x16 .f32 :=
  addf (addf (Host.dotGeneral dot_S100000x64_S64x16_S100000x16_1_0_0_1_n_n none
      (Host.divf msg (broadcastInDim S100000x64 ![0, 1] bcast_S100000x1_S100000x64_0_1 (broadcastInDim S100000x1 ![0] bcast_S100000_S100000x1_0
        (maximumf deg (broadcastInDim S100000 ![] bcast_S_S100000 (constant (F := Ideal) S_ .f32 0x3F800000#32)))))) wl)
      (broadcastInDim S100000x16 ![0, 1] bcast_S1x16_S100000x16_0_1 (broadcastInDim S1x16 ![1] bcast_S16_S1x16_1 b)))
    (Host.dotGeneral dot_S100000x64_S64x16_S100000x16_1_0_0_1_n_n none x wr)

/-- Entry (n, c) of it: the layer's value for row n. -/
theorem layer1_apply (msg : FVec Ideal S100000x64 .f32) (deg : FVec Ideal S100000 .f32) (x : FVec Ideal S100000x64 .f32)
    (wl : FVec Ideal S64x16 .f32) (b : FVec Ideal S16 .f32) (wr : FVec Ideal S64x16 .f32) (n : Fin 100000) (c : Fin 16) :
    layer1 msg deg x wl b wr (ix2 n c)
      = LibSage.sageAt (Ideal.ofBits .f32 0x3F800000#32) (fun k => msg (ix2 n k)) (deg (ix1 n)) (fun k => x (ix2 n k))
          (fun k => wl (ix2 k c)) (fun k => wr (ix2 k c)) (b (ix1 c)) := by
  unfold layer1
  exact LibSage.refLayer_apply dot_S100000x64_S64x16_S100000x16_1_0_0_1_n_n rfl _ _ _ _ _ 0x3F800000#32 msg x deg wl wr b n c

end Cert.ReferenceIdeal.HostFns

end
-- ==== Proof.RefValue.lean ====
/-
  What the idealized reference leaves in its result array, as one function of the launch contents of its arguments:
  its second layer of the neighbour sum of `hidden`, the in-degree, and `hidden`, where `hidden` is its first layer
  (with the maximum against zero) of the neighbour sum of the features, the in-degree, and the features. The composed
  term its run states is this, operation for operation.
-/
import proofs.«159627_j66614942761183_2_alg».proof.Proof.Gen.ReferenceIdeal.Run
import proofs.«159627_j66614942761183_2_alg».proof.Proof.HostR

noncomputable section

namespace Cert.ReferenceIdeal.Whole

open Cert.ReferenceIdeal Cert.ReferenceIdeal.Gen Cert.ReferenceIdeal.HostFns
open Idealize.ShloMosaic Idealize.ShloMosaic.TcCoe Idealize.SL.Sem

variable (m : (ℓ : Loc nD τ sig) → Buf (Elt Ideal) ℓ) (c : Dev nD)

/-- The reference's first layer, clipped at zero, from the launch contents. -/
def hidden : FVec Ideal S100000x64 .f32 :=
  layer0 (aggrRows (srcRow (m ((c.tc : Thread nD τ).loc main_arg1))) (dstRow (m ((c.tc : Thread nD τ).loc main_arg1))) (m ((c.tc : Thread nD τ).loc main_arg0)))
    (degRows (dstRow (m ((c.tc : Thread nD τ).loc main_arg1)))) (m ((c.tc : Thread nD τ).loc main_arg0))
    (m ((c.tc : Thread nD τ).loc main_arg2)) (m ((c.tc : Thread nD τ).loc main_arg3)) (m ((c.tc : Thread nD τ).loc main_arg4))

/-- The reference's result from the launch contents. -/
def out : FVec Ideal S100000x16 .f32 :=
  layer1 (aggrRows (srcRow (m ((c.tc : Thread nD τ).loc main_arg1))) (dstRow (m ((c.tc : Thread nD τ).loc main_arg1))) (hidden m c))
    (degRows (dstRow (m ((c.tc : Thread nD τ).loc main_arg1)))) (hidden m c)
    (m ((c.tc : Thread nD τ).loc main_arg5)) (m ((c.tc : Thread nD τ).loc main_arg6)) (m ((c.tc : Thread nD τ).loc main_arg7))

set_option maxRecDepth 8192 in
/-- The term the reference's run states for its result is `out`. -/
theorem res_eq : Value.res_main_v54 (F := Ideal) m c = out m c := by
  unfold Value.res_main_v54 out hidden layer1 layer0 aggrRows degRows srcRow dstRow
  rfl

end Cert.ReferenceIdeal.Whole

end
-- ==== Proof.Bridge.lean ====
/-
  The two programs compute one function. Entry (n, c) of each layer is, in both, the layer's one-output value of row n:
  the kernel's call computes it block of rows by block of rows with the bias added last, the reference on whole arrays
  with the bias added before the second product — the same sum, since addition of extended reals is commutative and
  associative; the degree vector reshaped to a column and the bias vector reshaped to a row read the same entries as
  the reference's stretched copies. The host operations around the layers (the edge rows, the in-degree, the
  neighbour sums) are the same operations in both programs, applied to equal arrays, so they are carried along unopened.
-/
import proofs.«159627_j66614942761183_2_alg».proof.Proof.KernelValue
import proofs.«159627_j66614942761183_2_alg».proof.Proof.RefValue

noncomputable section

namespace Cert.Bridge

open Idealize.ShloMosaic Idealize.ShloMosaic.TcCoe Idealize.SL.Sem Idealize.ShloMosaic.ValueIdx
open Cert.KernelIdeal Cert.KernelIdeal.Gen

/-- The reference's first layer on whole arrays is the kernel's first call's function, the degree vector as a column
    and the bias vector as a row. -/
theorem layer0_eq (msg : FVec Ideal S100000x64 .f32) (deg : FVec Ideal S100000 .f32) (x : FVec Ideal S100000x64 .f32)
    (wl : FVec Ideal S64x64 .f32) (b : FVec Ideal S64 .f32) (wr : FVec Ideal S64x64 .f32) :
    Cert.ReferenceIdeal.HostFns.layer0 msg deg x wl b wr
      = Cert.KernelIdeal.Layer0.G msg (shapeCast _ deg shapeCasts_S100000_S100000x1) x wl (shapeCast _ b shapeCasts_S64_S1x64) wr := by
  funext i
  obtain ⟨n, c, rfl⟩ : ∃ (n : Fin 100000) (c : Fin 64), i = ix2 n c := ⟨i 0, i 1, eq_ix2 i⟩
  rw [Cert.ReferenceIdeal.HostFns.layer0_apply]
  unfold Cert.KernelIdeal.Layer0.G
  show _ = max (LibSage.sageLayer _ msg _ x wl _ wr (ix2 n c)) _
  rw [LibSage.sageLayer_apply, Cert.Gcn.shapeCast_a_a1_apply, shapeCast_a_1a_apply]

/-- The reference's second layer on whole arrays is the kernel's second call's function. -/
theorem layer1_eq (msg : FVec Ideal S100000x64 .f32) (deg : FVec Ideal S100000 .f32) (x : FVec Ideal S100000x64 .f32)
    (wl : FVec Ideal S64x16 .f32) (b : FVec Ideal S16 .f32) (wr : FVec Ideal S64x16 .f32) :
    Cert.ReferenceIdeal.HostFns.layer1 msg deg x wl b wr
      = Cert.KernelIdeal.Layer1.G msg (shapeCast _ deg shapeCasts_S100000_S100000x1) x wl (shapeCast _ b shapeCasts_S16_S1x16) wr := by
  funext i
  obtain ⟨n, c, rfl⟩ : ∃ (n : Fin 100000) (c : Fin 16), i = ix2 n c := ⟨i 0, i 1, eq_ix2 i⟩
  rw [Cert.ReferenceIdeal.HostFns.layer1_apply]
  unfold Cert.KernelIdeal.Layer1.G
  rw [LibSage.sageLayer_apply, Cert.Gcn.shapeCast_a_a1_apply, shapeCast_a_1a_apply]

/-- The host operations are the same functions in the two programs. -/
theorem srcRow_eq (e : IVec S2x1600000 32) : Cert.ReferenceIdeal.HostFns.srcRow e = Cert.KernelIdeal.HostFns.srcRow e := rfl
theorem dstRow_eq (e : IVec S2x1600000 32) : Cert.ReferenceIdeal.HostFns.dstRow e = Cert.KernelIdeal.HostFns.dstRow e := rfl
theorem degRows_eq (d : IVec S1600000 32) : Cert.ReferenceIdeal.HostFns.degRows (F := Ideal) d = Cert.KernelIdeal.HostFns.degRows (F := Ideal) d := rfl
theorem aggrRows_eq (s d : IVec S1600000 32) (h : FVec Ideal S100000x64 .f32) :
    Cert.ReferenceIdeal.HostFns.aggrRows s d h = Cert.KernelIdeal.HostFns.aggrRows s d h := rfl

/-- The reference's result is the kernel's, on memories that agree on the eight arguments. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Whole.out m' c = Cert.KernelIdeal.Whole.out m c := by
  unfold Cert.ReferenceIdeal.Whole.out Cert.ReferenceIdeal.Whole.hidden Cert.KernelIdeal.Whole.out Cert.KernelIdeal.Whole.hidden
  rw [h0, h1, h2, h3, h4, h5, h6, h7]
  rw [layer1_eq, layer0_eq]
  simp only [srcRow_eq, dstRow_eq, degRows_eq, aggrRows_eq]

end Cert.Bridge

end
-- ==== Proof.lean ====
/-
  A two-layer mean-aggregating graph network: the kernel's program against its jnp reference, over the extended reals.

  Both programs gather, for every edge, the source node's row and add it into the destination's row (the neighbour
  sum), count the edges into every node (the in-degree), and apply twice the layer

      out n c = (∑ₖ (msg n k / max (deg n) 1) · Wl k c + ∑ₖ x n k · Wr k c) + b c,

  the first time followed by a maximum against zero. The kernel's program computes each layer in a call that works on
  ten thousand rows at a time, adding the bias last; the reference computes it on whole arrays and adds the bias before
  the second product. A change of float format is the identity on the extended reals and their addition is commutative
  and associative, so the two arrangements are one function of the arguments (Proof/Bridge.lean), whatever the
  arguments hold: the precondition is not used. The kernel's run ends with that function in its result array
  (Proof/KernelValue.lean, over the two calls' blocks in Proof/Layer0.lean and Proof/Layer1.lean), the reference's run
  likewise (Proof/RefValue.lean). The idealization rewrote nothing, so the kernel's idealized program is its own text.
-/
import proofs.«159627_j66614942761183_2_alg».proof.Defs
import proofs.«159627_j66614942761183_2_alg».proof.Proof.Gen.Kernel
import proofs.«159627_j66614942761183_2_alg».proof.Proof.Gen.Kernel.Skeleton
import proofs.«159627_j66614942761183_2_alg».proof.Proof.Gen.Kernel.Launch
import proofs.«159627_j66614942761183_2_alg».proof.Proof.Gen.Kernel.Points
import proofs.«159627_j66614942761183_2_alg».proof.Proof.Gen.Kernel.Frame
import proofs.«159627_j66614942761183_2_alg».proof.Proof.Gen.KernelIdeal
import proofs.«159627_j66614942761183_2_alg».proof.Proof.Gen.KernelIdeal.Skeleton
import proofs.«159627_j66614942761183_2_alg».proof.Proof.Gen.KernelIdeal.Launch
import proofs.«159627_j66614942761183_2_alg».proof.Proof.Gen.KernelIdeal.Points
import proofs.«159627_j66614942761183_2_alg».proof.Proof.Gen.KernelIdeal.Frame
import proofs.«159627_j66614942761183_2_alg».proof.Proof.Gen.ReferenceIdeal
import proofs.«159627_j66614942761183_2_alg».proof.Proof.Gen.Pre_finite_inputs
import proofs.«159627_j66614942761183_2_alg».proof.Proof.Gen.ReferenceIdeal.Run
import proofs.«159627_j66614942761183_2_alg».proof.Proof.Bridge
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does its idealized program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments both idealized programs end with the same result array: the kernel's
    run leaves `out` of its arguments, the reference's run its own composed term, which is the same function. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact (Cert.ReferenceIdeal.Whole.res_eq m' c).trans (Cert.Bridge.out_eq m m' c h0 h1 h2 h3 h4 h5 h6 h7)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
